-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x512 .f32) (main_arg1 : FVec F S1600000 .f32) (main_arg2 : FVec F S512x128 .f32) (main_arg3 : FVec F S128 .f32) (main_arg4 : FVec F S128x128 .f32) (main_arg5 : FVec F S128 .f32) (main_arg6 : IVec S1600000 32) (main_arg7 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S100000x128 : Shape := ⟨2, ![100000, 128]⟩
abbrev S2000x512 : Shape := ⟨2, ![2000, 512]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 46
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S100000x128, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.WholeRun.lean ====
/-
  The idealized kernel's run with its RESULT kept.  The program is four pipelined regions among two stretches of host
  operations.  Every weakly fair execution from any memory with zero counters terminates without a fault, and in every
  final state each unscoped buffer holds what the last segment boundary's contents say; read at the result buffer and
  at the eight argument buffers this gives: the result holds the last boundary's contents there, and the arguments are as
  launched.  What those contents ARE, as a function of the arguments, is read back through the segments elsewhere.
-/
import proofs.«147517_j58789512348190_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.WholeRun

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.DenseSteps.lean ====
/-
  What one graph-convolution layer's two dense steps compute, index by index, with no program in sight.

  * `rowsTimes x w`: the product of an n × K array by a K × b array on the extended reals, entry (r, u) the finite
    sum over k of x (r, k) · w (k, u).
  * `biasRelu s row`: a one-row array added to every row of s and the result clamped below at the value of the
    zero word, entry (r, u) = max (s (r, u) + row (0, u)) 0.  It is stated over any float instance: only the
    pointwise sum and maximum are used.
-/
import Idealize.ShloMosaic.Lib.ValueIdx
import Idealize.ShloMosaic.PureOps.Ideal

noncomputable section

open scoped BigOperators

namespace Cert.DenseSteps

open Idealize.ShloMosaic Idealize.ShloMosaic.ValueIdx

/-- Rows times columns: entry (r, u) is Σ_k x (r, k) · w (k, u). -/
def rowsTimes {n K b : ℕ} (x : (⟨2, ![n, K]⟩ : Shape).Idx → EReal) (w : (⟨2, ![K, b]⟩ : Shape).Idx → EReal) :
    (⟨2, ![n, b]⟩ : Shape).Idx → EReal :=
  fun i => ∑ k : Fin K, x (ix2 (n0 := n) (i 0) k) * w (ix2 (n1 := b) k (i 1))

theorem rowsTimes_apply {n K b : ℕ} (x : (⟨2, ![n, K]⟩ : Shape).Idx → EReal) (w : (⟨2, ![K, b]⟩ : Shape).Idx → EReal)
    (r : Fin n) (u : Fin b) : rowsTimes x w (ix2 r u) = ∑ k : Fin K, x (ix2 r k) * w (ix2 k u) := rfl

variable {F : FTy → Type} [FloatOps F]

/-- One row added to every row, then the maximum with the zero word's value. -/
def biasRelu {n b : ℕ} (s : (⟨2, ![n, b]⟩ : Shape).Idx → F .f32) (row : (⟨2, ![1, b]⟩ : Shape).Idx → F .f32) :
    (⟨2, ![n, b]⟩ : Shape).Idx → F .f32 :=
  fun i => FloatOps.maximumf (FloatOps.addf (s i) (row (ix2 (0 : Fin 1) (n1 := b) (i 1)))) (FloatOps.ofBits .f32 0x00000000#32)

theorem biasRelu_apply {n b : ℕ} (s : (⟨2, ![n, b]⟩ : Shape).Idx → F .f32) (row : (⟨2, ![1, b]⟩ : Shape).Idx → F .f32)
    (r : Fin n) (u : Fin b) :
    biasRelu s row (ix2 r u)
      = FloatOps.maximumf (FloatOps.addf (s (ix2 r u)) (row (ix2 (0 : Fin 1) u))) (FloatOps.ofBits .f32 0x00000000#32) := rfl

end Cert.DenseSteps

end
-- ==== Proof.BlockValues.lean ====
/-
  What each kernel body stores, read at one entry of the block, on the extended reals.

  The two product bodies load a 2000-row block and the whole weight array, relabel both at a narrower float format
  (the identity on the extended reals), and store their product into the zero accumulator: entry (p, u) of the
  stored block is Σ_k block (p, k) · weights (k, u).  The two bias bodies load a 2000 × 128 block and the one-row
  bias array, add the row to every row of the block and store the maximum with the zero word: entry (p, u) is
  max (block (p, u) + bias (0, u)) 0.
-/
import proofs.«147517_j58789512348190_1_alg».proof.Proof.Gen.KernelIdeal.Skeleton
import proofs.«147517_j58789512348190_1_alg».proof.Proof.LibRowsProduct
import proofs.«147517_j58789512348190_1_alg».proof.Proof.DenseSteps
import Idealize.ShloMosaic.Lib.Pipeline.Value
import Idealize.ShloMosaic.Lib.ValueLayout

noncomputable section

open scoped BigOperators

namespace Cert.KernelIdeal.BlockValues

open Idealize.ShloMosaic Idealize.ShloMosaic.ValueIdx Cert.KernelIdeal Cert.KernelIdeal.Gen

/-! ## Where the two product records send an output index and a contraction index -/

theorem dotA_l0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem dotA_l1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem dotA_r0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem dotA_r1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

theorem dotB_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dotB_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dotB_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dotB_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## The product bodies -/

/-- The first product body's stored block at (p, u): Σ_k block (p, k) · weights (k, u), over the 512 input features. -/
theorem product512_apply (x0 : FVec Ideal S2000x512 .f32) (x1 : FVec Ideal S512x128 .f32) (p : Fin 2000) (u : Fin 128) :
    k0_pay1 (F := Ideal) x0 x1 (ix2 p u) = ∑ k : Fin 512, x0 (ix2 p k) * x1 (ix2 k u) := by
  unfold k0_pay1
  exact Cert.RowsProduct.matmul_zero_rows_apply dot_S2000x512_S512x128_S2000x128_1_0_0_1_n_n none rfl rfl
    dotA_l0 dotA_l1 dotA_r0 dotA_r1 (truncf .bf16 x0 bitsLt_bf16_f32) (truncf .bf16 x1 bitsLt_bf16_f32) p u

/-- The second product body's stored block at (p, u): Σ_k block (p, k) · weights (k, u), over the 128 hidden features. -/
theorem product128_apply (x0 : FVec Ideal S2000x128 .f32) (x1 : FVec Ideal S128x128 .f32) (p : Fin 2000) (u : Fin 128) :
    k2_pay1 (F := Ideal) x0 x1 (ix2 p u) = ∑ k : Fin 128, x0 (ix2 p k) * x1 (ix2 k u) := by
  unfold k2_pay1
  rw [shapeCast_self]
  exact Cert.RowsProduct.matmul_zero_rows_apply dot_S2000x128_S128x128_S2000x128_1_0_0_1_n_n none rfl rfl
    dotB_l0 dotB_l1 dotB_r0 dotB_r1 (truncf .bf16 x0 bitsLt_bf16_f32) (truncf .bf16 x1 bitsLt_bf16_f32) p u

/-! ## The bias bodies (at any float instance) -/

variable {F : FTy → Type} [FloatOps F]

/-- The first bias body's stored block at (p, u): max (block (p, u) + bias (0, u)) 0. -/
theorem biasRelu1_apply (x0 : FVec F S2000x128 .f32) (x1 : FVec F S1x128 .f32) (p : Fin 2000) (u : Fin 128) :
    k1_pay1 (F := F) x0 x1 (ix2 p u)
      = FloatOps.maximumf (FloatOps.addf (x0 (ix2 p u)) (x1 (ix2 (0 : Fin 1) u))) (FloatOps.ofBits .f32 0x00000000#32) := by
  unfold k1_pay1
  rw [shapeCast_self, shapeCast_self]
  show FloatOps.maximumf (FloatOps.addf (x0 (ix2 p u)) (broadcastTo S2000x128 x1 broadcasts_S1x128_S2000x128 (ix2 p u))) _ = _
  rw [broadcastTo_1b_ab_apply]
  rfl

/-- The second bias body's stored block at (p, u): max (block (p, u) + bias (0, u)) 0. -/
theorem biasRelu3_apply (x0 : FVec F S2000x128 .f32) (x1 : FVec F S1x128 .f32) (p : Fin 2000) (u : Fin 128) :
    k3_pay1 (F := F) x0 x1 (ix2 p u)
      = FloatOps.maximumf (FloatOps.addf (x0 (ix2 p u)) (x1 (ix2 (0 : Fin 1) u))) (FloatOps.ofBits .f32 0x00000000#32) := by
  unfold k3_pay1
  rw [shapeCast_self, shapeCast_self]
  show FloatOps.maximumf (FloatOps.addf (x0 (ix2 p u)) (broadcastTo S2000x128 x1 broadcasts_S1x128_S2000x128 (ix2 p u))) _ = _
  rw [broadcastTo_1b_ab_apply]
  rfl

end Cert.KernelIdeal.BlockValues

end
-- ==== Proof.Product512.lean ====
/-
  What the first product region leaves in its result array, as one function of the arrays it finds on entry.

  The region walks 50 grid points; point t reads rows 2000·t … 2000·t + 1999 of the 100000 × 512 input array (all 512 columns)
  and the whole 512 × 128 weight array, and writes rows 2000·t … 2000·t + 1999 of the 100000 × 128 result.  Row r of the
  result is therefore written by point r / 2000 and by no other, the 50 blocks tile the result, and entry (r, u) ends
  as Σ_k input (r, k) · weights (k, u): the rows-times-columns product of the two whole arrays.
-/
import proofs.«147517_j58789512348190_1_alg».proof.Proof.Gen.KernelIdeal.Frame
import proofs.«147517_j58789512348190_1_alg».proof.Proof.BlockValues
import Idealize.ShloMosaic.Lib.Pipeline.Value

set_option maxRecDepth 16384

noncomputable section

open scoped BigOperators

namespace Cert.KernelIdeal.Product512

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseSteps

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the 50 grid points: the input block and the result block sit at block row t,
    block column 0; the weight array is always its one block. -/
theorem block_indices : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the 50 block rows of the result is some point's. -/
theorem block_row_reached : ∀ q : Fin 50, ∃ t : Fin cfg0.N, win0_2.index t = ![q.val, 0] :=
  (by decide +kernel : ∀ q : Fin 50, ∃ t : Fin grid0.N, win0_2.index t = ![q.val, 0])

/-- What point t writes back is block t of the rows-times-columns product of the two arrays the region finds. -/
theorem written_back (c : Dev nD) (t : Fin cfg0.N) :
    (dat0 (F := Ideal) V c).flushed 2 t
      = ((cfg0.win 2).blk t).view.read (Elt Ideal) (rowsTimes (n := 100000) (K := 512) (b := 128) (V c main_arg0) (V c main_arg2)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x128) origin]
  obtain ⟨e0, e1, e2, e3, e4⟩ := block_indices t
  funext y
  obtain ⟨p, u, rfl⟩ : ∃ (p : Fin 2000) (u : Fin 128), y = ix2 p u := ⟨y 0, y 1, eq_ix2 y⟩
  refine (BlockValues.product512_apply (iblk0 V c 0 t) (iblk0 V c 1 t) p u).trans ?_
  show _ = rowsTimes (n := 100000) (K := 512) (b := 128) (V c main_arg0) (V c main_arg2) (((cfg0.win 2).blk t).view.emb (ix2 p u))
  dsimp only [rowsTimes]
  refine Finset.sum_congr rfl fun k _ => ?_
  refine congrArg₂ (· * ·) ?_ ?_
  · show V c main_arg0 (((cfg0.win 0).blk t).view.emb (ix2 p k)) = _
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  · show V c main_arg2 (((cfg0.win 1).blk t).view.emb (ix2 k u)) = _
    refine congrArg _ (funext fun a => Fin.ext ?_)
    match a with
    | ⟨0, _⟩ => show win0_1.index t (0 : Fin 2) * 512 + 1 * k.val = k.val; omega
    | ⟨1, _⟩ => show win0_1.index t (1 : Fin 2) * 128 + 1 * u.val = win0_2.index t (1 : Fin 2) * 128 + 1 * u.val; omega

/-- An index of the result is in point t's block iff each coordinate is in the block's range on its axis. -/
theorem in_block_iff (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r of the result lies in the block of the point at block row r / 2000: the 50 blocks cover the result. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_row_reached ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [in_block_iff]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the rows-times-columns product of the input array and the weight array as
    the region found them, over the 512 input features. -/
theorem result_array (c : Dev nD) :
    (dat0 (F := Ideal) V c).arrAt 2 cfg0.N
      = rowsTimes (n := 100000) (K := 512) (b := 128) (V c main_arg0) (V c main_arg2) :=
  (dat0 (F := Ideal) V c).arrAt_eq_of_cover 2 _ (fun t _ => written_back V c t) blocks_cover

end Cert.KernelIdeal.Product512

end
-- ==== Proof.Product128.lean ====
/-
  What the second product region leaves in its result array, as one function of the arrays it finds on entry.

  The region walks 50 grid points; point t reads rows 2000·t … 2000·t + 1999 of the 100000 × 128 array the first bias region left (all 128 columns)
  and the whole 128 × 128 weight array, and writes rows 2000·t … 2000·t + 1999 of the 100000 × 128 result.  Row r of the
  result is therefore written by point r / 2000 and by no other, the 50 blocks tile the result, and entry (r, u) ends
  as Σ_k input (r, k) · weights (k, u): the rows-times-columns product of the two whole arrays.
-/
import proofs.«147517_j58789512348190_1_alg».proof.Proof.Gen.KernelIdeal.Frame
import proofs.«147517_j58789512348190_1_alg».proof.Proof.BlockValues
import Idealize.ShloMosaic.Lib.Pipeline.Value

set_option maxRecDepth 16384

noncomputable section

open scoped BigOperators

namespace Cert.KernelIdeal.Product128

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseSteps

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the 50 grid points: the input block and the result block sit at block row t,
    block column 0; the weight array is always its one block. -/
theorem block_indices : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the 50 block rows of the result is some point's. -/
theorem block_row_reached : ∀ q : Fin 50, ∃ t : Fin cfg2.N, win2_2.index t = ![q.val, 0] :=
  (by decide +kernel : ∀ q : Fin 50, ∃ t : Fin grid2.N, win2_2.index t = ![q.val, 0])

/-- What point t writes back is block t of the rows-times-columns product of the two arrays the region finds. -/
theorem written_back (c : Dev nD) (t : Fin cfg2.N) :
    (dat2 (F := Ideal) V c).flushed 2 t
      = ((cfg2.win 2).blk t).view.read (Elt Ideal) (rowsTimes (n := 100000) (K := 128) (b := 128) (V c main_v15) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e0, e1, e2, e3, e4⟩ := block_indices t
  funext y
  obtain ⟨p, u, rfl⟩ : ∃ (p : Fin 2000) (u : Fin 128), y = ix2 p u := ⟨y 0, y 1, eq_ix2 y⟩
  refine (BlockValues.product128_apply (iblk2 V c 0 t) (iblk2 V c 1 t) p u).trans ?_
  show _ = rowsTimes (n := 100000) (K := 128) (b := 128) (V c main_v15) (V c main_arg4) (((cfg2.win 2).blk t).view.emb (ix2 p u))
  dsimp only [rowsTimes]
  refine Finset.sum_congr rfl fun k _ => ?_
  refine congrArg₂ (· * ·) ?_ ?_
  · show V c main_v15 (((cfg2.win 0).blk t).view.emb (ix2 p k)) = _
    refine congrArg _ (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  · show V c main_arg4 (((cfg2.win 1).blk t).view.emb (ix2 k u)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * u.val = win2_2.index t (1 : Fin 2) * 128 + 1 * u.val; omega

/-- An index of the result is in point t's block iff each coordinate is in the block's range on its axis. -/
theorem in_block_iff (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v16).slice (win2_2.rect t)).set ↔ _
  rw [View.set_slice_whole, Rect.mem_set_unit]
  exact Iff.rfl

/-- Row r of the result lies in the block of the point at block row r / 2000: the 50 blocks cover the result. -/
theorem blocks_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_row_reached ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [in_block_iff]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the region: the rows-times-columns product of the input array and the weight array as
    the region found them, over the 128 hidden features. -/
theorem result_array (c : Dev nD) :
    (dat2 (F := Ideal) V c).arrAt 2 cfg2.N
      = rowsTimes (n := 100000) (K := 128) (b := 128) (V c main_v15) (V c main_arg4) :=
  (dat2 (F := Ideal) V c).arrAt_eq_of_cover 2 _ (fun t _ => written_back V c t) blocks_cover

end Cert.KernelIdeal.Product128

end
-- ==== Proof.Bias1.lean ====
/-
  What the first bias region leaves in its result array, as one function of the arrays it finds on entry.

  The region walks 50 grid points; point t reads rows 2000·t … 2000·t + 1999 of the 100000 × 128 input array and the
  whole one-row bias array, and writes the same rows of the 100000 × 128 result.  Row r of the result is written by point
  r / 2000 and by no other, the 50 blocks tile the result, and entry (r, u) ends as max (input (r, u) + bias (0, u)) 0.
  Nothing here depends on the float instance.
-/
import proofs.«147517_j58789512348190_1_alg».proof.Proof.Gen.KernelIdeal.Frame
import proofs.«147517_j58789512348190_1_alg».proof.Proof.BlockValues
import Idealize.ShloMosaic.Lib.Pipeline.Value

set_option maxRecDepth 16384

noncomputable section

namespace Cert.KernelIdeal.Bias1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseSteps

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The printed index maps, decided over the 50 grid points: the input block and the result block sit at block row t,
    block column 0; the bias array is always its one block. -/
theorem block_indices : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (1 : Fin 2) = 0 :=
  (by decide +kernel : ∀ t : Fin grid1.N, _)

/-- Every one of the 50 block rows of the result is some point's. -/
theorem block_row_reached : ∀ q : Fin 50, ∃ t : Fin cfg1.N, win1_2.index t = ![q.val, 0] :=
  (by decide +kernel : ∀ q : Fin 50, ∃ t : Fin grid1.N, win1_2.index t = ![q.val, 0])

/-- What point t writes back is block t of "input plus the bias row, clamped below at zero" of the two arrays the
    region finds. -/
theorem written_back (c : Dev nD) (t : Fin cfg1.N) :
    (dat1 (F := F) V c).flushed 2 t
      = ((cfg1.win 2).blk t).view.read (Elt F) (biasRelu (F := F) (V c (Pipeline.arrRef spec1 0)) (V c (Pipeline.arrRef spec1 1))) := by
  show (cfg1.win 2).cut (grid1.coords t) ((dat1 V c).after 2 t) = _
  rw [after1_2]
  unfold out1_2
  rw [View.canon_unit_zero origin]
  simp only [View.ld_unit_zero (S := S2000x128) origin, View.ld_unit_zero (S := S1x128) origin]
  obtain ⟨e0, e1, e2, e3, e4⟩ := block_indices t
  funext y
  obtain ⟨p, u, rfl⟩ : ∃ (p : Fin 2000) (u : Fin 128), y = ix2 p u := ⟨y 0, y 1, eq_ix2 y⟩
  refine (BlockValues.biasRelu1_apply (iblk1 V c 0 t) (iblk1 V c 1 t) p u).trans ?_
  show _ = FloatOps.maximumf (FloatOps.addf (V c (Pipeline.arrRef spec1 0) (((cfg1.win 2).blk t).view.emb (ix2 p u)))
      (V c (Pipeline.arrRef spec1 1) (ix2 (0 : Fin 1) ((((cfg1.win 2).blk t).view.emb (ix2 p u)) 1)))) (FloatOps.ofBits .f32 0x00000000#32)
  have h0 : iblk1 V c 0 t (ix2 p u) = V c (Pipeline.arrRef spec1 0) (((cfg1.win 2).blk t).view.emb (ix2 p u)) := by
    show V c (Pipeline.arrRef spec1 0) (((cfg1.win 0).blk t).view.emb (ix2 p u)) = _
    refine congrArg _ (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * u.val = win1_2.index t (1 : Fin 2) * 128 + 1 * u.val; omega
  have h1 : iblk1 V c 1 t (ix2 (0 : Fin 1) u)
      = V c (Pipeline.arrRef spec1 1) (ix2 (0 : Fin 1) ((((cfg1.win 2).blk t).view.emb (ix2 p u)) 1)) := by
    show V c (Pipeline.arrRef spec1 1) (((cfg1.win 1).blk t).view.emb (ix2 (0 : Fin 1) u)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * u.val = win1_2.index t (1 : Fin 2) * 128 + 1 * u.val; omega
  rw [h0, h1]

/-- An index of the result is in point t's block iff each coordinate is in the block's range on its axis. -/
theorem in_block_iff (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole (Pipeline.arrRef spec1 2)).slice (win1_2.rect t)).set ↔ _
  rw [View.set_slice_whole, Rect.mem_set_unit]
  exact Iff.rfl

/-- Row r of the result lies in the block of the point at block row r / 2000: the 50 blocks cover the result. -/
theorem blocks_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_row_reached ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [in_block_iff]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region: the input array plus the bias row, clamped below at zero, of the arrays as the
    region found them. -/
theorem result_array (c : Dev nD) :
    (dat1 (F := F) V c).arrAt 2 cfg1.N
      = biasRelu (F := F) (V c (Pipeline.arrRef spec1 0)) (V c (Pipeline.arrRef spec1 1)) :=
  (dat1 (F := F) V c).arrAt_eq_of_cover 2 _ (fun t _ => written_back V c t) blocks_cover

end Cert.KernelIdeal.Bias1

end
-- ==== Proof.Bias3.lean ====
/-
  What the second bias region leaves in its result array, as one function of the arrays it finds on entry.

  The region walks 50 grid points; point t reads rows 2000·t … 2000·t + 1999 of the 100000 × 128 input array and the
  whole one-row bias array, and writes the same rows of the 100000 × 128 result.  Row r of the result is written by point
  r / 2000 and by no other, the 50 blocks tile the result, and entry (r, u) ends as max (input (r, u) + bias (0, u)) 0.
  Nothing here depends on the float instance.
-/
import proofs.«147517_j58789512348190_1_alg».proof.Proof.Gen.KernelIdeal.Frame
import proofs.«147517_j58789512348190_1_alg».proof.Proof.BlockValues
import Idealize.ShloMosaic.Lib.Pipeline.Value

set_option maxRecDepth 16384

noncomputable section

namespace Cert.KernelIdeal.Bias3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseSteps

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The printed index maps, decided over the 50 grid points: the input block and the result block sit at block row t,
    block column 0; the bias array is always its one block. -/
theorem block_indices : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (1 : Fin 2) = 0 :=
  (by decide +kernel : ∀ t : Fin grid3.N, _)

/-- Every one of the 50 block rows of the result is some point's. -/
theorem block_row_reached : ∀ q : Fin 50, ∃ t : Fin cfg3.N, win3_2.index t = ![q.val, 0] :=
  (by decide +kernel : ∀ q : Fin 50, ∃ t : Fin grid3.N, win3_2.index t = ![q.val, 0])

/-- What point t writes back is block t of "input plus the bias row, clamped below at zero" of the two arrays the
    region finds. -/
theorem written_back (c : Dev nD) (t : Fin cfg3.N) :
    (dat3 (F := F) V c).flushed 2 t
      = ((cfg3.win 2).blk t).view.read (Elt F) (biasRelu (F := F) (V c (Pipeline.arrRef spec3 0)) (V c (Pipeline.arrRef spec3 1))) := by
  show (cfg3.win 2).cut (grid3.coords t) ((dat3 V c).after 2 t) = _
  rw [after3_2]
  unfold out3_2
  rw [View.canon_unit_zero origin]
  simp only [View.ld_unit_zero (S := S2000x128) origin, View.ld_unit_zero (S := S1x128) origin]
  obtain ⟨e0, e1, e2, e3, e4⟩ := block_indices t
  funext y
  obtain ⟨p, u, rfl⟩ : ∃ (p : Fin 2000) (u : Fin 128), y = ix2 p u := ⟨y 0, y 1, eq_ix2 y⟩
  refine (BlockValues.biasRelu3_apply (iblk3 V c 0 t) (iblk3 V c 1 t) p u).trans ?_
  show _ = FloatOps.maximumf (FloatOps.addf (V c (Pipeline.arrRef spec3 0) (((cfg3.win 2).blk t).view.emb (ix2 p u)))
      (V c (Pipeline.arrRef spec3 1) (ix2 (0 : Fin 1) ((((cfg3.win 2).blk t).view.emb (ix2 p u)) 1)))) (FloatOps.ofBits .f32 0x00000000#32)
  have h0 : iblk3 V c 0 t (ix2 p u) = V c (Pipeline.arrRef spec3 0) (((cfg3.win 2).blk t).view.emb (ix2 p u)) := by
    show V c (Pipeline.arrRef spec3 0) (((cfg3.win 0).blk t).view.emb (ix2 p u)) = _
    refine congrArg _ (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * u.val = win3_2.index t (1 : Fin 2) * 128 + 1 * u.val; omega
  have h1 : iblk3 V c 1 t (ix2 (0 : Fin 1) u)
      = V c (Pipeline.arrRef spec3 1) (ix2 (0 : Fin 1) ((((cfg3.win 2).blk t).view.emb (ix2 p u)) 1)) := by
    show V c (Pipeline.arrRef spec3 1) (((cfg3.win 1).blk t).view.emb (ix2 (0 : Fin 1) u)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * u.val = win3_2.index t (1 : Fin 2) * 128 + 1 * u.val; omega
  rw [h0, h1]

/-- An index of the result is in point t's block iff each coordinate is in the block's range on its axis. -/
theorem in_block_iff (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole (Pipeline.arrRef spec3 2)).slice (win3_2.rect t)).set ↔ _
  rw [View.set_slice_whole, Rect.mem_set_unit]
  exact Iff.rfl

/-- Row r of the result lies in the block of the point at block row r / 2000: the 50 blocks cover the result. -/
theorem blocks_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := block_row_reached ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [in_block_iff]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The result array after the region: the input array plus the bias row, clamped below at zero, of the arrays as the
    region found them. -/
theorem result_array (c : Dev nD) :
    (dat3 (F := F) V c).arrAt 2 cfg3.N
      = biasRelu (F := F) (V c (Pipeline.arrRef spec3 0)) (V c (Pipeline.arrRef spec3 1)) :=
  (dat3 (F := F) V c).arrAt_eq_of_cover 2 _ (fun t _ => written_back V c t) blocks_cover

end Cert.KernelIdeal.Bias3

end
-- ==== Proof.SparseStep.lean ====
/-
  The sparse step both programs apply between their dense steps, as ONE function that is never opened:
  the destination indices are wrapped once (a negative index has the node count added), the dense array's rows are
  gathered along them, each gathered row is scaled by its edge's weight, and the scaled rows are summed into a zero
  array at the rows the source indices name.  The two dimension records and the four shape facts it needs are
  variables: each program supplies its own, and the function is the same.
-/
import Idealize.ShloMosaic.PureOps

noncomputable section

namespace Cert.SparseStep

open Idealize.ShloMosaic

abbrev Nodes : Shape := ⟨2, ![100000, 128]⟩
abbrev Edges : Shape := ⟨1, ![1600000]⟩
abbrev EdgeCol : Shape := ⟨2, ![1600000, 1]⟩
abbrev EdgeRows : Shape := ⟨2, ![1600000, 128]⟩
abbrev Unit0 : Shape := ⟨0, ![]⟩

variable {F : FTy → Type} [FloatOps F]

/-- Σ over the edges e with source row r of weight e · dense (wrapped destination e, ·), as the host spells it. -/
def neighbourSum (gd : GatherDims Nodes EdgeCol EdgeRows) (sd : ScatterDims Nodes EdgeCol EdgeRows)
    (hcol : Edges.BroadcastsInDim EdgeCol (![0] : Fin 1 → Fin EdgeCol.rank))
    (hsplat : Unit0.BroadcastsInDim Edges (![] : Fin 0 → Fin Edges.rank))
    (hlanes : EdgeCol.BroadcastsInDim EdgeRows (![0, 1] : Fin 2 → Fin EdgeRows.rank))
    (hzero : Unit0.BroadcastsInDim Nodes (![] : Fin 0 → Fin Nodes.rank))
    (dense : (⟨Nodes, .f32⟩ : BufTy).Contents (Elt F)) (weight : (⟨Edges, .f32⟩ : BufTy).Contents (Elt F))
    (src dst : (⟨Edges, .i32⟩ : BufTy).Contents (Elt F)) : (⟨Nodes, .f32⟩ : BufTy).Contents (Elt F) :=
  Host.scatterAdd sd (broadcastInDim Nodes ![] hzero (constant Unit0 .f32 0x00000000#32))
    (broadcastInDim EdgeCol ![0] hcol src)
    (mulf (broadcastInDim EdgeRows ![0, 1] hlanes (broadcastInDim EdgeCol ![0] hcol weight))
      (Host.gather gd dense (broadcastInDim EdgeCol ![0] hcol
        (select (cmpi .slt dst (broadcastInDim Edges ![] hsplat (constantI Unit0 32 0#32)))
          (addi dst (broadcastInDim Edges ![] hsplat (constantI Unit0 32 100000#32))) dst))))

end Cert.SparseStep

end
-- ==== Proof.HostStretches.lean ====
/-
  What the kernel program's two stretches of host operations leave, read off any contents W they start from.

  Each stretch is the sparse step applied to the preceding product region's result (with the edge weights and the two
  index arrays, which are arguments), followed by the bias vector recast as a one-row array.  So after a stretch the
  scatter's result buffer holds `neighbourSum` of what W held at the product's result and at the three arguments, the
  bias row's buffer holds the bias argument recast, and the argument buffers hold what W held: no host operation writes
  an argument.
-/
import proofs.«147517_j58789512348190_1_alg».proof.Proof.Gen.KernelIdeal.Launch
import proofs.«147517_j58789512348190_1_alg».proof.Proof.SparseStep
import Idealize.ShloMosaic.Lib.StableHlo.Run

set_option maxRecDepth 16384

noncomputable section

namespace Cert.KernelIdeal.HostStretches

open Idealize.ShloMosaic Idealize.ShloMosaic.TcCoe Idealize.SL.Sem Idealize.ShloMosaic.StableHlo
open Cert.KernelIdeal Cert.KernelIdeal.Gen Cert.SparseStep

variable {F : FTy → Type} [FloatOps F] (W : Valuation τ sig (Elt F))

/-- After the first stretch the scatter's result is the sparse step of the first product's result. -/
theorem first_sum : StableHlo.after (hostOps1 (F := F)) W (Proc.devRef .tc main_v13)
    = neighbourSum (F := F) gather_S100000x128_S1600000x1_S1600000x128_1_0_n_n_0_1_1128 scatter_S100000x128_S1600000x1_S1600000x128_1_0_0_1
        Facts₀.bcast_S1600000_S1600000x1_0 Facts₀.bcast_S_S1600000 Facts₀.bcast_S1600000x1_S1600000x128_0_1 Facts₀.bcast_S_S100000x128
        (W (Proc.devRef .tc main_v0)) (W (Proc.devRef .tc main_arg1)) (W (Proc.devRef .tc main_arg6)) (W (Proc.devRef .tc main_arg7)) := by
  simp only [hostOps1]
  after_results_simp <;> rfl

/-- After the first stretch the bias row is the first bias vector recast as 1 × 128. -/
theorem first_bias_row : StableHlo.after (hostOps1 (F := F)) W (Proc.devRef .tc main_v14)
    = shapeCast S1x128 (W (Proc.devRef .tc main_arg3)) Facts₀.shapeCasts_S128_S1x128 := by
  simp only [hostOps1]
  after_results <;> rfl

theorem first_keeps_main_arg1 : StableHlo.after (hostOps1 (F := F)) W (Proc.devRef .tc main_arg1) = W (Proc.devRef .tc main_arg1) := by
  simp only [hostOps1]
  after_results <;> rfl
theorem first_keeps_main_arg4 : StableHlo.after (hostOps1 (F := F)) W (Proc.devRef .tc main_arg4) = W (Proc.devRef .tc main_arg4) := by
  simp only [hostOps1]
  after_results <;> rfl
theorem first_keeps_main_arg5 : StableHlo.after (hostOps1 (F := F)) W (Proc.devRef .tc main_arg5) = W (Proc.devRef .tc main_arg5) := by
  simp only [hostOps1]
  after_results <;> rfl
theorem first_keeps_main_arg6 : StableHlo.after (hostOps1 (F := F)) W (Proc.devRef .tc main_arg6) = W (Proc.devRef .tc main_arg6) := by
  simp only [hostOps1]
  after_results <;> rfl
theorem first_keeps_main_arg7 : StableHlo.after (hostOps1 (F := F)) W (Proc.devRef .tc main_arg7) = W (Proc.devRef .tc main_arg7) := by
  simp only [hostOps1]
  after_results <;> rfl

/-- After the second stretch the scatter's result is the sparse step of the second product's result. -/
theorem second_sum : StableHlo.after (hostOps3 (F := F)) W (Proc.devRef .tc main_v29)
    = neighbourSum (F := F) gather_S100000x128_S1600000x1_S1600000x128_1_0_n_n_0_1_1128 scatter_S100000x128_S1600000x1_S1600000x128_1_0_0_1
        Facts₀.bcast_S1600000_S1600000x1_0 Facts₀.bcast_S_S1600000 Facts₀.bcast_S1600000x1_S1600000x128_0_1 Facts₀.bcast_S_S100000x128
        (W (Proc.devRef .tc main_v16)) (W (Proc.devRef .tc main_arg1)) (W (Proc.devRef .tc main_arg6)) (W (Proc.devRef .tc main_arg7)) := by
  simp only [hostOps3]
  after_results_simp <;> rfl

/-- After the second stretch the bias row is the second bias vector recast as 1 × 128. -/
theorem second_bias_row : StableHlo.after (hostOps3 (F := F)) W (Proc.devRef .tc main_v30)
    = shapeCast S1x128 (W (Proc.devRef .tc main_arg5)) Facts₀.shapeCasts_S128_S1x128 := by
  simp only [hostOps3]
  after_results <;> rfl

end Cert.KernelIdeal.HostStretches

end
-- ==== Proof.TwoLayers.lean ====
/-
  The two-layer graph convolution both programs compute, on the extended reals, as one function of the eight argument
  arrays: a layer multiplies the node features by its weight array (rows times columns), applies the sparse step
  (gather along the destinations, scale by the edge weights, sum at the sources), adds the bias row and clamps below
  at zero; the second layer is fed the first layer's result.  The sparse step's records and shape facts, and the fact
  that a 128-vector recasts as one row, are variables.
-/
import proofs.«147517_j58789512348190_1_alg».proof.Proof.DenseSteps
import proofs.«147517_j58789512348190_1_alg».proof.Proof.SparseStep

noncomputable section

namespace Cert.TwoLayers

open Idealize.ShloMosaic Cert.DenseSteps Cert.SparseStep

abbrev Bias : Shape := ⟨1, ![128]⟩
abbrev BiasRow : Shape := ⟨2, ![1, 128]⟩

/-- One layer over K input features. -/
def layer {K : ℕ} (gd : GatherDims Nodes EdgeCol EdgeRows) (sd : ScatterDims Nodes EdgeCol EdgeRows)
    (hcol : Edges.BroadcastsInDim EdgeCol (![0] : Fin 1 → Fin EdgeCol.rank))
    (hsplat : Unit0.BroadcastsInDim Edges (![] : Fin 0 → Fin Edges.rank))
    (hlanes : EdgeCol.BroadcastsInDim EdgeRows (![0, 1] : Fin 2 → Fin EdgeRows.rank))
    (hzero : Unit0.BroadcastsInDim Nodes (![] : Fin 0 → Fin Nodes.rank))
    (hcast : Bias.ShapeCasts BiasRow)
    (x : (⟨2, ![100000, K]⟩ : Shape).Idx → EReal) (w : (⟨2, ![K, 128]⟩ : Shape).Idx → EReal) (bias : Bias.Idx → EReal)
    (weight : (⟨Edges, .f32⟩ : BufTy).Contents (Elt Ideal)) (src dst : (⟨Edges, .i32⟩ : BufTy).Contents (Elt Ideal)) :
    Nodes.Idx → EReal :=
  biasRelu (F := Ideal) (n := 100000) (b := 128)
    (neighbourSum (F := Ideal) gd sd hcol hsplat hlanes hzero (rowsTimes (n := 100000) (K := K) (b := 128) x w) weight src dst)
    (shapeCast BiasRow bias hcast)

/-- The network: the second layer on the first layer's result. -/
def network (gd : GatherDims Nodes EdgeCol EdgeRows) (sd : ScatterDims Nodes EdgeCol EdgeRows)
    (hcol : Edges.BroadcastsInDim EdgeCol (![0] : Fin 1 → Fin EdgeCol.rank))
    (hsplat : Unit0.BroadcastsInDim Edges (![] : Fin 0 → Fin Edges.rank))
    (hlanes : EdgeCol.BroadcastsInDim EdgeRows (![0, 1] : Fin 2 → Fin EdgeRows.rank))
    (hzero : Unit0.BroadcastsInDim Nodes (![] : Fin 0 → Fin Nodes.rank))
    (hcast : Bias.ShapeCasts BiasRow)
    (x : (⟨2, ![100000, 512]⟩ : Shape).Idx → EReal) (weight : (⟨Edges, .f32⟩ : BufTy).Contents (Elt Ideal))
    (w1 : (⟨2, ![512, 128]⟩ : Shape).Idx → EReal) (b1 : Bias.Idx → EReal)
    (w2 : (⟨2, ![128, 128]⟩ : Shape).Idx → EReal) (b2 : Bias.Idx → EReal)
    (src dst : (⟨Edges, .i32⟩ : BufTy).Contents (Elt Ideal)) : Nodes.Idx → EReal :=
  layer (K := 128) gd sd hcol hsplat hlanes hzero hcast
    (layer (K := 512) gd sd hcol hsplat hlanes hzero hcast x w1 b1 weight src dst) w2 b2 weight src dst

end Cert.TwoLayers

end
-- ==== Proof.ResultValue.lean ====
/-
  The idealized kernel's result as a function of its arguments.

  The run's segments are: product region, host stretch, bias region, product region, host stretch, bias region.  Each
  region's result array is the dense step of the arrays it found (the blocks tile the array), each stretch applies
  the sparse step to the product before it and recasts a bias vector as a row, and nothing writes an argument.  Reading
  the contents at the six boundaries from the launch forwards, the result buffer ends holding the two-layer network of
  the eight argument arrays.
-/
import proofs.«147517_j58789512348190_1_alg».proof.Proof.Gen.KernelIdeal.Frame
import proofs.«147517_j58789512348190_1_alg».proof.Proof.Product512
import proofs.«147517_j58789512348190_1_alg».proof.Proof.Product128
import proofs.«147517_j58789512348190_1_alg».proof.Proof.Bias1
import proofs.«147517_j58789512348190_1_alg».proof.Proof.Bias3
import proofs.«147517_j58789512348190_1_alg».proof.Proof.HostStretches
import proofs.«147517_j58789512348190_1_alg».proof.Proof.TwoLayers

set_option maxRecDepth 16384

noncomputable section

namespace Cert.KernelIdeal.ResultValue

open Idealize.ShloMosaic Idealize.ShloMosaic.TcCoe Idealize.SL.Sem
open Cert.KernelIdeal Cert.KernelIdeal.Gen Cert.DenseSteps Cert.SparseStep Cert.TwoLayers

variable (m : (ℓ : Loc nD τ sig) → Buf (Elt Ideal) ℓ) (ρ : Dev nD → PrngReg) (c : Dev nD)

/-! ## After the first product region -/

/-- The first product's array: node features times the first weight array. -/
theorem boundary1_product : W1 m ρ c (Proc.devRef .tc main_v0)
    = rowsTimes (n := 100000) (K := 512) (b := 128) (m ((c : Thread nD τ).loc main_arg0)) (m ((c : Thread nD τ).loc main_arg2)) :=
  (W1_arr m ρ c 2).trans (Product512.result_array (V0 m ρ) c)

theorem boundary1_arg1 : W1 m ρ c (Proc.devRef .tc main_arg1) = m ((c : Thread nD τ).loc main_arg1) :=
  W1_of_ne m ρ c main_arg1 (by decide)
theorem boundary1_arg3 : W1 m ρ c (Proc.devRef .tc main_arg3) = m ((c : Thread nD τ).loc main_arg3) :=
  W1_of_ne m ρ c main_arg3 (by decide)
theorem boundary1_arg4 : W1 m ρ c (Proc.devRef .tc main_arg4) = m ((c : Thread nD τ).loc main_arg4) :=
  W1_of_ne m ρ c main_arg4 (by decide)
theorem boundary1_arg5 : W1 m ρ c (Proc.devRef .tc main_arg5) = m ((c : Thread nD τ).loc main_arg5) :=
  W1_of_ne m ρ c main_arg5 (by decide)
theorem boundary1_arg6 : W1 m ρ c (Proc.devRef .tc main_arg6) = m ((c : Thread nD τ).loc main_arg6) :=
  W1_of_ne m ρ c main_arg6 (by decide)
theorem boundary1_arg7 : W1 m ρ c (Proc.devRef .tc main_arg7) = m ((c : Thread nD τ).loc main_arg7) :=
  W1_of_ne m ρ c main_arg7 (by decide)

/-! ## After the first host stretch -/

theorem boundary2_sum : W2 m ρ c (Proc.devRef .tc main_v13)
    = neighbourSum (F := Ideal) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128
        (rowsTimes (n := 100000) (K := 512) (b := 128) (m ((c : Thread nD τ).loc main_arg0)) (m ((c : Thread nD τ).loc main_arg2))) (m ((c : Thread nD τ).loc main_arg1)) (m ((c : Thread nD τ).loc main_arg6)) (m ((c : Thread nD τ).loc main_arg7)) :=
  (HostStretches.first_sum (W1 m ρ c)).trans (by
    rw [boundary1_product m ρ c, boundary1_arg1 m ρ c, boundary1_arg6 m ρ c, boundary1_arg7 m ρ c])

theorem boundary2_bias_row : W2 m ρ c (Proc.devRef .tc main_v14)
    = shapeCast S1x128 (m ((c : Thread nD τ).loc main_arg3)) Facts₀.shapeCasts_S128_S1x128 :=
  (HostStretches.first_bias_row (W1 m ρ c)).trans (by rw [boundary1_arg3 m ρ c])

/-! ## After the first bias region: the first layer -/

theorem boundary3_layer : W3 m ρ c (Proc.devRef .tc main_v15)
    = layer (K := 512) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128 Facts₀.shapeCasts_S128_S1x128
        (m ((c : Thread nD τ).loc main_arg0)) (m ((c : Thread nD τ).loc main_arg2)) (m ((c : Thread nD τ).loc main_arg3)) (m ((c : Thread nD τ).loc main_arg1)) (m ((c : Thread nD τ).loc main_arg6)) (m ((c : Thread nD τ).loc main_arg7)) := by
  refine (W3_arr m ρ c 2).trans ((Bias1.result_array (V2 m ρ) c).trans ?_)
  show biasRelu (F := Ideal) (n := 100000) (b := 128) (W2 m ρ c (Proc.devRef .tc main_v13)) (W2 m ρ c (Proc.devRef .tc main_v14)) = _
  rw [boundary2_sum m ρ c, boundary2_bias_row m ρ c]
  rfl

theorem boundary3_arg4 : W3 m ρ c (Proc.devRef .tc main_arg4) = m ((c : Thread nD τ).loc main_arg4) :=
  (W3_of_ne m ρ c main_arg4 (by decide)).trans ((HostStretches.first_keeps_main_arg4 (W1 m ρ c)).trans (boundary1_arg4 m ρ c))

/-! ## After the second product region -/

theorem boundary4_product : W4 m ρ c (Proc.devRef .tc main_v16)
    = rowsTimes (n := 100000) (K := 128) (b := 128)
        (layer (K := 512) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128 Facts₀.shapeCasts_S128_S1x128
          (m ((c : Thread nD τ).loc main_arg0)) (m ((c : Thread nD τ).loc main_arg2)) (m ((c : Thread nD τ).loc main_arg3)) (m ((c : Thread nD τ).loc main_arg1)) (m ((c : Thread nD τ).loc main_arg6)) (m ((c : Thread nD τ).loc main_arg7))) (m ((c : Thread nD τ).loc main_arg4)) := by
  refine (W4_arr m ρ c 2).trans ((Product128.result_array (V3 m ρ) c).trans ?_)
  show rowsTimes (n := 100000) (K := 128) (b := 128) (W3 m ρ c (Proc.devRef .tc main_v15)) (W3 m ρ c (Proc.devRef .tc main_arg4)) = _
  rw [boundary3_layer m ρ c, boundary3_arg4 m ρ c]

theorem boundary4_arg1 : W4 m ρ c (Proc.devRef .tc main_arg1) = m ((c : Thread nD τ).loc main_arg1) :=
  (W4_of_ne m ρ c main_arg1 (by decide)).trans ((W3_of_ne m ρ c main_arg1 (by decide)).trans
    ((HostStretches.first_keeps_main_arg1 (W1 m ρ c)).trans (boundary1_arg1 m ρ c)))
theorem boundary4_arg5 : W4 m ρ c (Proc.devRef .tc main_arg5) = m ((c : Thread nD τ).loc main_arg5) :=
  (W4_of_ne m ρ c main_arg5 (by decide)).trans ((W3_of_ne m ρ c main_arg5 (by decide)).trans
    ((HostStretches.first_keeps_main_arg5 (W1 m ρ c)).trans (boundary1_arg5 m ρ c)))
theorem boundary4_arg6 : W4 m ρ c (Proc.devRef .tc main_arg6) = m ((c : Thread nD τ).loc main_arg6) :=
  (W4_of_ne m ρ c main_arg6 (by decide)).trans ((W3_of_ne m ρ c main_arg6 (by decide)).trans
    ((HostStretches.first_keeps_main_arg6 (W1 m ρ c)).trans (boundary1_arg6 m ρ c)))
theorem boundary4_arg7 : W4 m ρ c (Proc.devRef .tc main_arg7) = m ((c : Thread nD τ).loc main_arg7) :=
  (W4_of_ne m ρ c main_arg7 (by decide)).trans ((W3_of_ne m ρ c main_arg7 (by decide)).trans
    ((HostStretches.first_keeps_main_arg7 (W1 m ρ c)).trans (boundary1_arg7 m ρ c)))

/-! ## After the second host stretch -/

theorem boundary5_sum : W5 m ρ c (Proc.devRef .tc main_v29)
    = neighbourSum (F := Ideal) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128
        (rowsTimes (n := 100000) (K := 128) (b := 128)
          (layer (K := 512) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128 Facts₀.shapeCasts_S128_S1x128
            (m ((c : Thread nD τ).loc main_arg0)) (m ((c : Thread nD τ).loc main_arg2)) (m ((c : Thread nD τ).loc main_arg3)) (m ((c : Thread nD τ).loc main_arg1)) (m ((c : Thread nD τ).loc main_arg6)) (m ((c : Thread nD τ).loc main_arg7))) (m ((c : Thread nD τ).loc main_arg4))) (m ((c : Thread nD τ).loc main_arg1)) (m ((c : Thread nD τ).loc main_arg6)) (m ((c : Thread nD τ).loc main_arg7)) :=
  (HostStretches.second_sum (W4 m ρ c)).trans (by
    rw [boundary4_product m ρ c, boundary4_arg1 m ρ c, boundary4_arg6 m ρ c, boundary4_arg7 m ρ c])

theorem boundary5_bias_row : W5 m ρ c (Proc.devRef .tc main_v30)
    = shapeCast S1x128 (m ((c : Thread nD τ).loc main_arg5)) Facts₀.shapeCasts_S128_S1x128 :=
  (HostStretches.second_bias_row (W4 m ρ c)).trans (by rw [boundary4_arg5 m ρ c])

/-! ## After the second bias region: the network -/

/-- The result buffer's last contents: the two-layer network of the argument arrays. -/
theorem result_is_network : W6 m ρ c (Proc.devRef .tc main_v31)
    = network gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128 Facts₀.shapeCasts_S128_S1x128
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ((Bias3.result_array (V5 m ρ) c).trans ?_)
  show biasRelu (F := Ideal) (n := 100000) (b := 128) (W5 m ρ c (Proc.devRef .tc main_v29)) (W5 m ρ c (Proc.devRef .tc main_v30)) = _
  rw [boundary5_sum m ρ c, boundary5_bias_row m ρ c]
  rfl

end Cert.KernelIdeal.ResultValue

end
-- ==== Proof.RefDenseSteps.lean ====
/-
  The reference's two dense steps are the same functions as the kernel's, index by index.

  On the extended reals the host's general dot product of the node features with a weight array is the
  rows-times-columns product (the same finite sum, in any order of its terms).  And the host's "add the bias, take the
  maximum with zero" — the bias vector broadcast first to one row and then down the rows, the zero word splat over the
  array — is entry by entry max (s (r, u) + bias u) 0, which is `biasRelu` of the bias vector recast as one row.  The
  second fact holds at any float instance.
-/
import proofs.«147517_j58789512348190_1_alg».proof.Proof.Gen.ReferenceIdeal.Read
import proofs.«147517_j58789512348190_1_alg».proof.Proof.LibRowsProduct
import proofs.«147517_j58789512348190_1_alg».proof.Proof.DenseSteps
import Idealize.ShloMosaic.Lib.ValueLayout

noncomputable section

open scoped BigOperators

namespace Cert.ReferenceIdeal.DenseStepsRead

open Idealize.ShloMosaic Idealize.ShloMosaic.ValueIdx
open Cert.ReferenceIdeal Cert.ReferenceIdeal.Read Cert.DenseSteps

/-- The first layer's host product is rows times columns over the 512 input features. -/
theorem product512 (x : FVec Ideal S100000x512 .f32) (w : FVec Ideal S512x128 .f32) :
    Host.dotGeneral (F := Ideal) dot_S100000x512_S512x128_S100000x128_1_0_0_1_n_n none x w
      = rowsTimes (n := 100000) (K := 512) (b := 128) x w := by
  funext i
  obtain ⟨r, u, rfl⟩ : ∃ (r : Fin 100000) (u : Fin 128), i = ix2 r u := ⟨i 0, i 1, eq_ix2 i⟩
  exact Cert.RowsProduct.dotGeneral_rows_apply dot_S100000x512_S512x128_S100000x128_1_0_0_1_n_n none .single rfl rfl
    lhs_main_v0_0 lhs_main_v0_1 rhs_main_v0_0 rhs_main_v0_1 x w r u

/-- The second layer's host product is rows times columns over the 128 hidden features. -/
theorem product128 (x : FVec Ideal S100000x128 .f32) (w : FVec Ideal S128x128 .f32) :
    Host.dotGeneral (F := Ideal) dot_S100000x128_S128x128_S100000x128_1_0_0_1_n_n none x w
      = rowsTimes (n := 100000) (K := 128) (b := 128) x w := by
  funext i
  obtain ⟨r, u, rfl⟩ : ∃ (r : Fin 100000) (u : Fin 128), i = ix2 r u := ⟨i 0, i 1, eq_ix2 i⟩
  exact Cert.RowsProduct.dotGeneral_rows_apply dot_S100000x128_S128x128_S100000x128_1_0_0_1_n_n none .single rfl rfl
    lhs_main_v18_0 lhs_main_v18_1 rhs_main_v18_0 rhs_main_v18_1 x w r u

variable {F : FTy → Type} [FloatOps F]

/-- The host's bias-and-clamp is `biasRelu` of the bias vector recast as one row. -/
theorem bias_clamp (s : FVec F S100000x128 .f32) (bias : FVec F S128 .f32) (hcast : S128.ShapeCasts S1x128) :
    maximumf (addf s (broadcastInDim S100000x128 ![0, 1] Facts₀.bcast_S1x128_S100000x128_0_1 (broadcastInDim S1x128 ![1] Facts₀.bcast_S128_S1x128_1 bias)))
        (broadcastInDim S100000x128 ![] Facts₀.bcast_S_S100000x128 (constant (F := F) S_ .f32 0x00000000#32))
      = biasRelu (F := F) (n := 100000) (b := 128) s (shapeCast S1x128 bias hcast) := by
  funext i
  obtain ⟨r, u, rfl⟩ : ∃ (r : Fin 100000) (u : Fin 128), i = ix2 r u := ⟨i 0, i 1, eq_ix2 i⟩
  show FloatOps.maximumf (FloatOps.addf (s (ix2 r u))
        (broadcastInDim S100000x128 ![0, 1] Facts₀.bcast_S1x128_S100000x128_0_1 (broadcastInDim S1x128 ![1] Facts₀.bcast_S128_S1x128_1 bias) (ix2 r u)))
      (broadcastInDim S100000x128 ![] Facts₀.bcast_S_S100000x128 (constant (F := F) S_ .f32 0x00000000#32) (ix2 r u))
    = FloatOps.maximumf (FloatOps.addf (s (ix2 r u)) (shapeCast S1x128 bias hcast (ix2 (0 : Fin 1) u))) (FloatOps.ofBits .f32 0x00000000#32)
  rw [broadcastInDim_apply _ Facts₀.bcast_S1x128_S100000x128_0_1 _ (ix2 r u) (ix2 (0 : Fin 1) u) (fun a => match a with
        | ⟨0, _⟩ => by show 0 = if (1 : Nat) = 1 then 0 else r.val; rw [if_pos rfl]
        | ⟨1, _⟩ => by show u.val = if (128 : Nat) = 1 then 0 else u.val; rw [if_neg (by decide)]),
    broadcastInDim_apply _ Facts₀.bcast_S128_S1x128_1 bias (ix2 (0 : Fin 1) u) (ix1 u) (fun a => match a with
        | ⟨0, _⟩ => by show u.val = if (128 : Nat) = 1 then 0 else u.val; rw [if_neg (by decide)]),
    broadcastInDim_apply _ Facts₀.bcast_S_S100000x128 _ (ix2 r u) ix0 (fun a => a.elim0),
    shapeCast_a_1a_apply]
  rfl

end Cert.ReferenceIdeal.DenseStepsRead

end
-- ==== Proof.RefNetwork.lean ====
/-
  The reference's result as the same two-layer network of its arguments.

  Stage by stage: each scatter stage is the sparse step of the product stage before it (the stages between them are
  exactly the sparse step's operations, so this is an unfolding); each product stage is rows times columns; each
  add-then-maximum pair is the bias row added and the result clamped below at zero.  Composed, the last stage is the
  network of the eight arguments.
-/
import proofs.«147517_j58789512348190_1_alg».proof.Proof.Gen.ReferenceIdeal.Read
import proofs.«147517_j58789512348190_1_alg».proof.Proof.RefDenseSteps
import proofs.«147517_j58789512348190_1_alg».proof.Proof.TwoLayers

noncomputable section

namespace Cert.ReferenceIdeal.NetworkRead

open Idealize.ShloMosaic
open Cert.ReferenceIdeal Cert.ReferenceIdeal.Read Cert.DenseSteps Cert.SparseStep Cert.TwoLayers

variable (x0 : (⟨S100000x512, .f32⟩ : BufTy).Contents (Elt Ideal)) (x1 : (⟨S1600000, .f32⟩ : BufTy).Contents (Elt Ideal))
  (x2 : (⟨S512x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 x7 : (⟨S1600000, .i32⟩ : BufTy).Contents (Elt Ideal)) (hcast : S128.ShapeCasts S1x128)

/-- The first scatter stage is the sparse step of the first product stage. -/
theorem first_sum : val_main_v13 (F := Ideal) x0 x1 x2 x6 x7
    = neighbourSum (F := Ideal) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128
        (val_main_v0 (F := Ideal) x0 x2) x1 x6 x7 := rfl

/-- The first activation stage is the first layer. -/
theorem first_layer : val_main_v17 (F := Ideal) x0 x1 x2 x3 x6 x7
    = layer (K := 512) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128 hcast x0 x2 x3 x1 x6 x7 := by
  unfold val_main_v17 val_main_v16 val_main_v15 val_main_v14 val_main_call0_v0 val_main_call0_cst
  rw [DenseStepsRead.bias_clamp _ _ hcast, first_sum]
  unfold val_main_v0
  rw [DenseStepsRead.product512]
  rfl

/-- The second scatter stage is the sparse step of the second product stage. -/
theorem second_sum : val_main_v31 (F := Ideal) x0 x1 x2 x3 x4 x6 x7
    = neighbourSum (F := Ideal) gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128
        (val_main_v18 (F := Ideal) x0 x1 x2 x3 x4 x6 x7) x1 x6 x7 := rfl

/-- The last stage is the network. -/
theorem result_is_network : val_main_v35 (F := Ideal) x0 x1 x2 x3 x4 x5 x6 x7
    = network gather_S100000x128_S1600000x1_S1600000x128_1_0_n_n_0_1_1128 scatter_S100000x128_S1600000x1_S1600000x128_1_0_0_1
      Facts₀.bcast_S1600000_S1600000x1_0 Facts₀.bcast_S_S1600000 Facts₀.bcast_S1600000x1_S1600000x128_0_1 Facts₀.bcast_S_S100000x128 hcast x0 x1 x2 x3 x4 x5 x6 x7 := by
  unfold val_main_v35 val_main_v34 val_main_v33 val_main_v32 val_main_call1_v0 val_main_call1_cst
  rw [DenseStepsRead.bias_clamp _ _ hcast, second_sum]
  unfold val_main_v18
  rw [DenseStepsRead.product128, first_layer x0 x1 x2 x3 x6 x7 hcast]
  rfl

end Cert.ReferenceIdeal.NetworkRead

end
-- ==== Proof.lean ====
/-
  A two-layer graph convolution over 100000 nodes and 1600000 weighted edges: the kernel program against its
  reference, on the extended reals.

  Both programs compute, layer by layer, relu (A · (H · W) + b): the node features times a weight array, the sparse
  product with the edge list (gather the rows at the edges' destinations, scale each by its edge weight, sum them at the
  edges' sources), the bias added to every row, and the maximum with zero.  The reference does all of it with host
  operations.  The kernel program does the two dense products and the two bias-and-clamp steps in four pipelined
  regions of 50 grid points each, 2000 rows to a point, and the sparse product with the reference's own host operations
  in between.

  On the extended reals a product region's result array is the rows-times-columns product of the arrays it finds (its
  50 blocks tile the result, and relabelling a float at a narrower format is the identity), which is what the host's
  general dot product is; a bias region's result is the input plus the bias row clamped below at zero, which is what
  the host's broadcast-add-maximum is.  The sparse product is the same function on both sides and is never opened.  So
  both results are ONE function, `network`, of the eight argument arrays, and no law of the extended reals beyond
  reading a sum at an index is used: the precondition that the inputs are finite is not needed.

  The three frame claims are the generated frames (the reference's from its generated run); the ideal pass rewrote no
  operation, so the preservation claim is `True`.
-/
import proofs.«147517_j58789512348190_1_alg».proof.Defs
import proofs.«147517_j58789512348190_1_alg».proof.Proof.Gen.Kernel
import proofs.«147517_j58789512348190_1_alg».proof.Proof.Gen.Kernel.Skeleton
import proofs.«147517_j58789512348190_1_alg».proof.Proof.Gen.Kernel.Launch
import proofs.«147517_j58789512348190_1_alg».proof.Proof.Gen.Kernel.Points
import proofs.«147517_j58789512348190_1_alg».proof.Proof.Gen.Kernel.Frame
import proofs.«147517_j58789512348190_1_alg».proof.Proof.Gen.KernelIdeal
import proofs.«147517_j58789512348190_1_alg».proof.Proof.Gen.KernelIdeal.Skeleton
import proofs.«147517_j58789512348190_1_alg».proof.Proof.Gen.KernelIdeal.Launch
import proofs.«147517_j58789512348190_1_alg».proof.Proof.Gen.KernelIdeal.Points
import proofs.«147517_j58789512348190_1_alg».proof.Proof.Gen.KernelIdeal.Frame
import proofs.«147517_j58789512348190_1_alg».proof.Proof.Gen.ReferenceIdeal
import proofs.«147517_j58789512348190_1_alg».proof.Proof.Gen.ReferenceIdeal.Run
import proofs.«147517_j58789512348190_1_alg».proof.Proof.Gen.ReferenceIdeal.Read
import proofs.«147517_j58789512348190_1_alg».proof.Proof.Gen.Pre_finite_inputs
import proofs.«147517_j58789512348190_1_alg».proof.Proof.WholeRun
import proofs.«147517_j58789512348190_1_alg».proof.Proof.ResultValue
import proofs.«147517_j58789512348190_1_alg».proof.Proof.RefNetwork
import Idealize.ShloMosaic.Adequacy
import Idealize.ShloMosaic.Init

noncomputable section

namespace Cert.Proof

open Idealize.ShloMosaic Idealize.SL.Sem Cert.TwoLayers

/-- The kernel program as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories agreeing on the arguments both programs end with the network of the arguments in their result
    buffers: the kernel program by reading its six segment boundaries, the reference by reading its stages. -/
theorem algebraic : Cert.algebraic_KernelIdeal_ReferenceIdeal := by
  intro m ρ m' ρ' _ hagree
  refine ⟨fun c => network Cert.KernelIdeal.gather_S100000x128_S1600000x1_S1600000x128_1_0_n_n_0_1_1128 Cert.KernelIdeal.scatter_S100000x128_S1600000x1_S1600000x128_1_0_0_1
      Cert.KernelIdeal.Facts₀.bcast_S1600000_S1600000x1_0 Cert.KernelIdeal.Facts₀.bcast_S_S1600000 Cert.KernelIdeal.Facts₀.bcast_S1600000x1_S1600000x128_0_1 Cert.KernelIdeal.Facts₀.bcast_S_S100000x128
      Cert.KernelIdeal.Facts₀.shapeCasts_S128_S1x128
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ResultValue.result_is_network m ρ c), (h c).2⟩)
      (Cert.KernelIdeal.WholeRun.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v35_eq (F := Ideal) _ _ _ _ _ _ _ _).trans ?_
    rw [Cert.ReferenceIdeal.NetworkRead.result_is_network _ _ _ _ _ _ _ _ Cert.KernelIdeal.Facts₀.shapeCasts_S128_S1x128,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
